-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S10x64 : Shape := ⟨2, ![10, 64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S10x64 : S_.BroadcastsInDim S10x64 (![] : Fin 0 → Fin S10x64.rank)
  reducesTo_S10x64_S_d0_1 : S10x64.ReducesTo [0, 1] S_

variable [Facts]

def fn {F : FTy → Type} [FloatOps F] (main_arg0 : FVec F S16384x64 .f32) (main_arg1 : FVec F S10x64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S10x64 .f32 := Host.absf main_arg1
  let main_cst_0 : FVec F S_ .f32 := constant S_ .f32 0x7F800000#32
  let main_v5 : FVec F S10x64 .f32 := broadcastInDim S10x64 ![] bcast_S_S10x64 main_cst_0
  let main_v6 : IVec S10x64 1 := cmpf .olt main_v4 main_v5
  let main_c_1 : IVec S_ 1 := constantI S_ 1 1#1
  let main_v7 : IVec S_ 1 := (fun x v => Host.reduce IntOp.andi x v reducesTo_S10x64_S_d0_1 h_S_) main_v6 main_c_1
  let main_v8 : IVec S_ 1 := andi main_v3 main_v7
  main_v8
-- ==== Kernel.lean ====
abbrev S16384x64 : Shape := ⟨2, ![16384, 64]⟩
abbrev S10x64 : Shape := ⟨2, ![10, 64]⟩
abbrev S64x16384 : Shape := ⟨2, ![64, 16384]⟩
abbrev S10x16384 : Shape := ⟨2, ![10, 16384]⟩
abbrev S64x8192 : Shape := ⟨2, ![64, 8192]⟩
abbrev S10x8192 : Shape := ⟨2, ![10, 8192]⟩
abbrev S16384x10 : Shape := ⟨2, ![16384, 10]⟩

abbrev nBuf : Space → Nat
  | .hbm => 5
  | .vmem => 5
  | .smem => 0
  | _ => 0

abbrev bufTy : (tb : Table) → Fin (tcTables nBuf tb) → BufTy
  | .hbm, ⟨0, _⟩ => ⟨S16384x64, .f32⟩
  | .hbm, ⟨1, _⟩ => ⟨S10x64, .f32⟩
  | .hbm, ⟨2, _⟩ => ⟨S64x16384, .f32⟩
  | .hbm, ⟨3, _⟩ => ⟨S10x16384, .f32⟩
  | .hbm, ⟨4, _⟩ => ⟨S16384x10, .f32⟩
  | .local _ .vmem, ⟨0, _⟩ => ⟨S10x64, .f32⟩
  | .local _ .vmem, ⟨1, _⟩ => ⟨S64x8192, .f32⟩
  | .local _ .vmem, ⟨2, _⟩ => ⟨S64x8192, .f32⟩
  | .local _ .vmem, ⟨3, _⟩ => ⟨S10x8192, .f32⟩
  | .local _ .vmem, ⟨4, _⟩ => ⟨S10x8192, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S10x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S64x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S16384x64_S64x16384_1_0 : S16384x64.Transposes [1, 0] S64x16384
  inb_S10x64_S10x64_0_0 : ∀ a, (![0, 0] : Fin 2 → Nat) a + S10x64.size a ≤ S10x64.size a
  h_S10x64 : 0 < S10x64.numel
  inb_S64x8192_S64x8192_0_0 : ∀ a, (![0, 0] : Fin 2 → Nat) a + S64x8192.size a ≤ S64x8192.size a
  h_S64x8192 : 0 < S64x8192.numel
  shapeCasts_S64x8192_S64x8192 : S64x8192.ShapeCasts S64x8192
  inb_S10x8192_S10x8192_0_0 : ∀ a, (![0, 0] : Fin 2 → Nat) a + S10x8192.size a ≤ S10x8192.size a
  h_S10x8192 : 0 < S10x8192.numel
  transposes_S10x16384_S16384x10_1_0 : S10x16384.Transposes [1, 0] S16384x10
  dot_S10x64_S64x8192_S10x8192_1_0_0_1_n_n_wf : DotDims.WF S10x64 S64x8192 S10x8192 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10x64.size a ≤ S10x64.size a
  hwx0_0 : ∀ i : grid0.Coords, EltTy.bits .f32 = 32 ∨ (Rect.block (s := S10x64) S10x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x8192.size a ≤ S64x16384.size a
  hwx0_1 : ∀ i : grid0.Coords, EltTy.bits .f32 = 32 ∨ (Rect.block (s := S64x16384) S64x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10x8192.size a ≤ S10x16384.size a
  hwx0_2 : ∀ i : grid0.Coords, EltTy.bits .f32 = 32 ∨ (Rect.block (s := S10x16384) S10x8192.size (cc0_transform_2 i) (hinb0_2 i)).WholeWords (EltTy.packing .f32)

variable [Facts₀]

def dot_S10x64_S64x8192_S10x8192_1_0_0_1_n_n : DotDims S10x64 S64x8192 S10x8192 where
  lhsContracting := [1]
  rhsContracting := [0]
  lhsNonContracting := [0]
  rhsNonContracting := [1]
  lhsBatch := []
  rhsBatch := []
  wf := dot_S10x64_S64x8192_S10x8192_1_0_0_1_n_n_wf

abbrev win0_0 : Pipeline.Window sig grid0 :=
  Pipeline.Window.ofSpec (Memref.whole main_arg1) S10x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S10x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x64 : Shape := ⟨2, ![16384, 64]⟩
abbrev S10x64 : Shape := ⟨2, ![10, 64]⟩
abbrev S16384x10 : Shape := ⟨2, ![16384, 10]⟩

abbrev nBuf : Space → Nat
  | .hbm => 3
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S10x64, .f32⟩
  | .hbm, ⟨2, _⟩ => ⟨S16384x10, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S16384x64_S10x64_S16384x10_1_1_0_0_n_n_wf : DotDims.WF S16384x64 S10x64 S16384x10 [1] [1] [0] [0] [] []

variable [Facts₀]

def dot_S16384x64_S10x64_S16384x10_1_1_0_0_n_n : DotDims S16384x64 S10x64 S16384x10 where
  lhsContracting := [1]
  rhsContracting := [1]
  lhsNonContracting := [0]
  rhsNonContracting := [0]
  lhsBatch := []
  rhsBatch := []
  wf := dot_S16384x64_S10x64_S16384x10_1_1_0_0_n_n_wf

class Facts : Prop extends Facts₀ where

variable [Facts]
-- ==== Proof.Logits.lean ====
/-
  The specification, stated over no program: the layer's output is
      logits[b, j] = Σ_i x[b, i] · W[j, i]      (x : 16384 × 64, W : 10 × 64)
  on the extended reals.  One side forms this sum directly.  The other side first transposes x, forms the
  matrix product  P = W · xᵀ  (P[j, b] = Σ_i W[j, i] · xᵀ[i, b]), and transposes P back.  The two agree entry by
  entry: reading the two transposes at an index turns P's entry into Σ_i W[j, i] · x[b, i], and the factors of every
  term commute.  Commutativity of the product is all that is used, so nothing here needs the entries to be finite.
-/
import Idealize.ShloMosaic.PureOps.Ideal
import Idealize.ShloMosaic.Lib.ValueIdx
import Idealize.ShloMosaic.Lib.ValueLayout

noncomputable section

open scoped BigOperators

namespace Cert.Logits

open Idealize.ShloMosaic Idealize.ShloMosaic.ValueIdx

/-- The layer's output: entry (b, j) is the inner product of row b of x with row j of W. -/
def logits (x : (⟨2, ![16384, 64]⟩ : Shape).Idx → EReal) (W : (⟨2, ![10, 64]⟩ : Shape).Idx → EReal) :
    (⟨2, ![16384, 10]⟩ : Shape).Idx → EReal :=
  fun i => ∑ k : Fin 64, x (ix2 (i 0) k) * W (ix2 (i 1) k)

/-- The matrix product W · Y of a 10 × 64 matrix with a 64 × 16384 matrix: entry (j, b) is Σ_i W[j, i] · Y[i, b]. -/
def prod (W : (⟨2, ![10, 64]⟩ : Shape).Idx → EReal) (Y : (⟨2, ![64, 16384]⟩ : Shape).Idx → EReal) :
    (⟨2, ![10, 16384]⟩ : Shape).Idx → EReal :=
  fun j => ∑ k : Fin 64, W (ix2 (j 0) k) * Y (ix2 k (j 1))

/-- (W · xᵀ)ᵀ = logits x W: entry (b, j) of the left side is entry (j, b) of W · xᵀ, that is
    Σ_i W[j, i] · xᵀ[i, b] = Σ_i W[j, i] · x[b, i], and each term is x[b, i] · W[j, i] with its factors swapped. -/
theorem transpose_prod_transpose (x : (⟨2, ![16384, 64]⟩ : Shape).Idx → EReal) (W : (⟨2, ![10, 64]⟩ : Shape).Idx → EReal)
    (hx : (⟨2, ![16384, 64]⟩ : Shape).Transposes [1, 0] ⟨2, ![64, 16384]⟩)
    (hp : (⟨2, ![10, 16384]⟩ : Shape).Transposes [1, 0] ⟨2, ![16384, 10]⟩) :
    transpose ⟨2, ![16384, 10]⟩ [1, 0] (prod W (transpose ⟨2, ![64, 16384]⟩ [1, 0] x hx)) hp = logits x W := by
  funext i
  obtain ⟨b, j, rfl⟩ : ∃ (b : Fin 16384) (j : Fin 10), i = ix2 b j := ⟨i 0, i 1, eq_ix2 i⟩
  rw [transpose_ix2_apply]
  unfold prod logits
  refine Finset.sum_congr rfl fun k _ => ?_
  rw [transpose_ix2_apply]
  exact mul_comm _ _

end Cert.Logits

end
-- ==== Proof.ReferenceLogits.lean ====
/-
  The reference computes the specification.  Its one operation is a contraction of x and W over their second axes:
  entry (b, j) of the result is the sum over i of x at (b, i) times W at (j, i), which is `logits x W` word for word
  once the operand indices are written by their coordinates.
-/
import proofs.«116845_g12841952215599_cont_fleet_1482_9_alg».proof.Proof.Gen.ReferenceIdeal.Read
import proofs.«116845_g12841952215599_cont_fleet_1482_9_alg».proof.Proof.Logits

noncomputable section

open scoped BigOperators

namespace Cert.ReferenceIdeal.RefValue

open Cert.ReferenceIdeal Cert.ReferenceIdeal.Gen Cert.ReferenceIdeal.Read
open Idealize.ShloMosaic Idealize.ShloMosaic.ValueIdx

/-- The left operand is read at row b = i 0, column k. -/
theorem lidx_eq (i : S16384x10.Idx) (k : Fin 64) : lidx_main_v0 i k = ix2 (i 0) k :=
  funext fun a => Fin.ext (by match a with | ⟨0, _⟩ => rfl | ⟨1, _⟩ => rfl)

/-- The right operand is read at row j = i 1, column k. -/
theorem ridx_eq (i : S16384x10.Idx) (k : Fin 64) : ridx_main_v0 i k = ix2 (i 1) k :=
  funext fun a => Fin.ext (by match a with | ⟨0, _⟩ => rfl | ⟨1, _⟩ => rfl)

/-- The reference's contraction of x with W over the 64 input nodes is the specification. -/
theorem dot_eq_logits (x : FVec Ideal S16384x64 .f32) (W : FVec Ideal S10x64 .f32) :
    Host.dotGeneral (F := Ideal) dot_S16384x64_S10x64_S16384x10_1_1_0_0_n_n none x W = Cert.Logits.logits x W := by
  rw [val_main_v0_eq]
  funext i
  rw [val_main_v0_apply]
  unfold Cert.Logits.logits
  refine Finset.sum_congr rfl fun k _ => ?_
  rw [lidx_eq, ridx_eq]
  rfl

end Cert.ReferenceIdeal.RefValue

end
-- ==== Proof.BodyProduct.lean ====
/-
  What the kernel's body computes at one grid point, entry by entry.  The body loads the whole 10 × 64 block of W and
  a 64 × 8192 block Y of xᵀ and stores their matrix product accumulated into zero.  On the extended reals the
  accumulator contributes nothing and no rounding or chunk order is left, so entry (j, b) of the stored block is
  Σ_i W[j, i] · Y[i, b]: the left operand is read at row j and the contraction position, the right operand at the
  contraction position and column b.
-/
import proofs.«116845_g12841952215599_cont_fleet_1482_9_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.BodyValue

open Cert.KernelIdeal Cert.KernelIdeal.Gen
open Idealize.ShloMosaic Idealize.ShloMosaic.ValueIdx

/-- The left operand's row is the output's row. -/
theorem lhs_row (j : S10x8192.Idx) (q : dot_S10x64_S64x8192_S10x8192_1_0_0_1_n_n.contr.Idx) :
    (dot_S10x64_S64x8192_S10x8192_1_0_0_1_n_n.lhsIdx j q 0).val = (j 0).val := by
  unfold DotDims.lhsIdx
  rw [dif_neg (show ¬(0 : Fin S10x64.rank) ∈ dot_S10x64_S64x8192_S10x8192_1_0_0_1_n_n.lhsBatch by decide), dif_pos (show (0 : Fin S10x64.rank) ∈ dot_S10x64_S64x8192_S10x8192_1_0_0_1_n_n.lhsNonContracting by decide)]
  rfl
/-- The left operand's column is the contraction position. -/
theorem lhs_col (j : S10x8192.Idx) (q : dot_S10x64_S64x8192_S10x8192_1_0_0_1_n_n.contr.Idx) :
    (dot_S10x64_S64x8192_S10x8192_1_0_0_1_n_n.lhsIdx j q 1).val = (q ⟨0, by decide⟩).val :=
  dot_S10x64_S64x8192_S10x8192_1_0_0_1_n_n.lhsIdx_val_of_single rfl j q
/-- The right operand's row is the contraction position. -/
theorem rhs_row (j : S10x8192.Idx) (q : dot_S10x64_S64x8192_S10x8192_1_0_0_1_n_n.contr.Idx) :
    (dot_S10x64_S64x8192_S10x8192_1_0_0_1_n_n.rhsIdx j q 0).val = (q ⟨0, by decide⟩).val :=
  dot_S10x64_S64x8192_S10x8192_1_0_0_1_n_n.rhsIdx_val_of_single rfl j q
/-- The right operand's column is the output's column. -/
theorem rhs_col (j : S10x8192.Idx) (q : dot_S10x64_S64x8192_S10x8192_1_0_0_1_n_n.contr.Idx) :
    (dot_S10x64_S64x8192_S10x8192_1_0_0_1_n_n.rhsIdx j q 1).val = (j 1).val := by
  unfold DotDims.rhsIdx
  rw [dif_neg (show ¬(1 : Fin S64x8192.rank) ∈ dot_S10x64_S64x8192_S10x8192_1_0_0_1_n_n.rhsBatch by decide), dif_pos (show (1 : Fin S64x8192.rank) ∈ dot_S10x64_S64x8192_S10x8192_1_0_0_1_n_n.rhsNonContracting by decide)]
  rfl

/-- Entry (j, b) of the block the body stores is Σ_i W[j, i] · Y[i, b]. -/
theorem pay_apply (w : FVec Ideal S10x64 .f32) (y : FVec Ideal S64x8192 .f32) (j : Fin 10) (b : Fin 8192) :
    k0_pay1 (F := Ideal) w y (ix2 j b) = ∑ k : Fin 64, w (ix2 j k) * y (ix2 k b) := by
  unfold k0_pay1
  simp only [matmul]
  rw [shapeCast_self, Ideal.matmul_constant_zero_apply, ← Equiv.sum_comp (contrEquiv1 dot_S10x64_S64x8192_S10x8192_1_0_0_1_n_n 64 rfl rfl).symm]
  refine Finset.sum_congr rfl fun k _ => ?_
  have hk := contrEquiv1_symm_val dot_S10x64_S64x8192_S10x8192_1_0_0_1_n_n 64 rfl rfl k
  have el : dot_S10x64_S64x8192_S10x8192_1_0_0_1_n_n.lhsIdx (ix2 j b) ((contrEquiv1 dot_S10x64_S64x8192_S10x8192_1_0_0_1_n_n 64 rfl rfl).symm k) = ix2 j k := funext fun a => Fin.ext (by
    match a with
    | ⟨0, _⟩ => exact lhs_row _ _
    | ⟨1, _⟩ => exact (lhs_col _ _).trans hk)
  have er : dot_S10x64_S64x8192_S10x8192_1_0_0_1_n_n.rhsIdx (ix2 j b) ((contrEquiv1 dot_S10x64_S64x8192_S10x8192_1_0_0_1_n_n 64 rfl rfl).symm k) = ix2 k b := funext fun a => Fin.ext (by
    match a with
    | ⟨0, _⟩ => exact (rhs_row _ _).trans hk
    | ⟨1, _⟩ => exact rhs_col _ _)
  rw [el, er]

end Cert.KernelIdeal.BodyValue

end
-- ==== Proof.ProductArray.lean ====
/-
  From the blocks to the whole array.  The grid has two points; point t works on the columns
  [8192·t, 8192·t + 8192) of xᵀ and of the product: W's block is all of W at both points, the block of xᵀ is all 64
  rows and those columns, and the block written back is all 10 rows and the same columns of the product.  So what
  point t writes back is exactly block t of ONE array, the full product  W · xᵀ  (10 × 16384): entry (j, b) of the
  stored block is Σ_i W[j, i] · Y[i, b] with Y[i, b] = xᵀ[i, 8192·t + b].  The two column ranges cover all 16384
  columns (column c lies in the block of point c / 8192), hence after the run the product's array holds  W · xᵀ
  everywhere.
-/
import proofs.«116845_g12841952215599_cont_fleet_1482_9_alg».proof.Proof.Gen.KernelIdeal.Frame
import proofs.«116845_g12841952215599_cont_fleet_1482_9_alg».proof.Proof.BodyProduct
import proofs.«116845_g12841952215599_cont_fleet_1482_9_alg».proof.Proof.Logits
import Idealize.ShloMosaic.Lib.Pipeline.Value

set_option maxRecDepth 16384

noncomputable section

open scoped BigOperators

namespace Cert.KernelIdeal.ProductArray

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

theorem zero_offsets : (![0, 0] : Fin 2 → Nat) = fun _ => 0 := funext fun a => by fin_cases a <;> rfl

/-- One stored block against the full product: if the loaded block `w` is all of `Wa`, and the loaded block `y` is
    the columns from `8192·p` on of `Ya`, then entry `z` of the body's product is entry `i` of `Wa · Ya` whenever
    `i` has `z`'s row and column `8192·p` + `z`'s column. -/
theorem block_entry (w : FVec Ideal S10x64 .f32) (y : FVec Ideal S64x8192 .f32)
    (Wa : (⟨2, ![10, 64]⟩ : Shape).Idx → EReal) (Ya : (⟨2, ![64, 16384]⟩ : Shape).Idx → EReal) (p : ℕ)
    (hw : ∀ (j : Fin 10) (k : Fin 64), w (ix2 j k) = Wa (ix2 j k))
    (hy : ∀ (k : Fin 64) (b : Fin 8192) (b' : Fin 16384), b'.val = p * 8192 + b.val → y (ix2 k b) = Ya (ix2 k b'))
    (z : S10x8192.Idx) (i : (⟨2, ![10, 16384]⟩ : Shape).Idx)
    (h0 : (i 0).val = (z 0).val) (h1 : (i 1).val = p * 8192 + (z 1).val) :
    k0_pay1 (F := Ideal) w y z = Cert.Logits.prod Wa Ya i := by
  obtain ⟨j, b, rfl⟩ : ∃ (j : Fin 10) (b : Fin 8192), z = ix2 j b := ⟨z 0, z 1, eq_ix2 z⟩
  rw [BodyValue.pay_apply]
  unfold Cert.Logits.prod
  refine Finset.sum_congr rfl fun k _ => ?_
  have hj : i 0 = j := Fin.ext h0
  rw [hw j k, hy k b (i 1) h1, hj]

/-- The printed index maps, decided over the two grid points: W's block index is (0, 0); the block of xᵀ and the
    block of the product are both (0, t). -/
theorem idx_facts : ∀ t : Fin cfg0.N, win0_0.index t (0 : Fin 2) = 0
    ∧ win0_0.index t (1 : Fin 2) = 0
    ∧ win0_1.index t (0 : Fin 2) = 0
    ∧ win0_1.index t (1 : Fin 2) = win0_2.index t (1 : Fin 2)
    ∧ win0_2.index t (0 : Fin 2) = 0
    ∧ win0_2.index t (1 : Fin 2) ≤ 1 :=
  (by decide +kernel : ∀ t : Fin grid0.N, _)

/-- Each of the two column blocks is some point's. -/
theorem idx_onto : ∀ q : Fin 2, ∃ t : Fin cfg0.N, win0_2.index t = ![0, q.val] :=
  (by decide +kernel : ∀ q : Fin 2, ∃ t : Fin grid0.N, win0_2.index t = ![0, q.val])

/-- What point `t` writes back is block `t` of the full product of W (as the region finds it) with xᵀ (as the
    region finds it, in the buffer the host transposed x into). -/
theorem flushed_eq (c : Dev nD) (t : Fin cfg0.N) :
    (dats m 0 c).flushed 2 t
      = ((cfg0.win 2).blk t).view.read (Elt Ideal) (Cert.Logits.prod (V m c main_arg1) (V m c main_v0)) := by
  show (cfg0.win 2).cut (grid0.coords t) ((dats m 0 c).after 2 t) = _
  rw [after0_2]
  unfold out0_2
  rw [View.canon_unit_zero zero_offsets]
  simp only [View.ld_unit_zero (S := S10x64) zero_offsets, View.ld_unit_zero (S := S64x8192) zero_offsets]
  obtain ⟨e0, e1, e2, e3, e4, e5⟩ := idx_facts t
  funext z
  refine block_entry (iblk m c 0 t) (iblk m c 1 t) (V m c main_arg1) (V m c main_v0) (win0_2.index t (1 : Fin 2))
    ?_ ?_ z (((cfg0.win 2).blk t).view.emb z) ?_ ?_
  · intro j k
    show V m c main_arg1 (((cfg0.win 0).blk t).view.emb (ix2 j k)) = V m c main_arg1 (ix2 j k)
    refine congrArg _ (funext fun a => Fin.ext ?_)
    match a with
    | ⟨0, _⟩ => show win0_0.index t (0 : Fin 2) * 10 + 1 * j.val = j.val; omega
    | ⟨1, _⟩ => show win0_0.index t (1 : Fin 2) * 64 + 1 * k.val = k.val; omega
  · intro k b b' hb
    show V m c main_v0 (((cfg0.win 1).blk t).view.emb (ix2 k b)) = V m c main_v0 (ix2 k b')
    refine congrArg _ (funext fun a => Fin.ext ?_)
    match a with
    | ⟨0, _⟩ => show win0_1.index t (0 : Fin 2) * 64 + 1 * k.val = k.val; omega
    | ⟨1, _⟩ => show win0_1.index t (1 : Fin 2) * 8192 + 1 * b.val = b'.val; omega
  · show win0_2.index t (0 : Fin 2) * 10 + 1 * (z 0).val = (z 0).val; omega
  · show win0_2.index t (1 : Fin 2) * 8192 + 1 * (z 1).val = win0_2.index t (1 : Fin 2) * 8192 + (z 1).val; omega

/-- An index of the product's array is in point `t`'s block iff each coordinate is in the block's range on its axis. -/
theorem mem_blk (t : Fin cfg0.N) (i : S10x16384.Idx) :
    i ∈ ((cfg0.win 2).blk t).view.set ↔ ∀ a : Fin 2, win0_2.index t a * S10x8192.size a ≤ (i a).val ∧ (i a).val < win0_2.index t a * S10x8192.size a + S10x8192.size a := by
  show i ∈ ((View.whole main_v1).slice (win0_2.rect t)).set ↔ _
  rw [View.set_slice_whole, Rect.mem_set_unit]
  exact Iff.rfl

/-- Every entry of the product's array is written back by some point: column c by point c / 8192. -/
theorem cover (i : S10x16384.Idx) :
    ∃ t : Fin cfg0.N, (cfg0.win 2).flush t = true ∧ i ∈ ((cfg0.win 2).blk t).view.set := by
  have hi0 : (i 0).val < 10 := (i 0).isLt
  have hi1 : (i 1).val < 16384 := (i 1).isLt
  obtain ⟨t, ht⟩ := idx_onto ⟨(i 1).val / 8192, by omega⟩
  have q0 : win0_2.index t (0 : Fin 2) = 0 := congrFun ht 0
  have q1 : win0_2.index t (1 : Fin 2) = (i 1).val / 8192 := congrFun ht 1
  refine ⟨t, flush0_2 t, ?_⟩
  rw [mem_blk]
  intro a
  match a with
  | ⟨0, _⟩ => show win0_2.index t (0 : Fin 2) * 10 ≤ (i 0).val ∧ (i 0).val < win0_2.index t (0 : Fin 2) * 10 + 10; omega
  | ⟨1, _⟩ => show win0_2.index t (1 : Fin 2) * 8192 ≤ (i 1).val ∧ (i 1).val < win0_2.index t (1 : Fin 2) * 8192 + 8192; omega

/-- After the run the product's array holds W · xᵀ. -/
theorem final (c : Dev nD) :
    (dats m 0 c).arrAt 2 cfg0.N = Cert.Logits.prod (V m c main_arg1) (V m c main_v0) :=
  (dats m 0 c).arrAt_eq_of_cover 2 _ (fun t _ => flushed_eq m c t) (cover)

end Cert.KernelIdeal.ProductArray

end
-- ==== Proof.HostSides.lean ====
/-
  The two host transposes around the region.  Before the region the host writes xᵀ into its own buffer: what the
  region finds there is the transpose of the argument x.  After the region the host transposes the product's array
  into the result: the result buffer ends holding the transpose of whatever the region left in the product's array.
-/
import proofs.«116845_g12841952215599_cont_fleet_1482_9_alg».proof.Proof.Gen.KernelIdeal.Frame
import Idealize.ShloMosaic.Lib.StableHlo.Run
import Idealize.ShloMosaic.PureOps.Ideal
import Idealize.ShloMosaic.Lib.Pipeline.FrameSuffix

noncomputable section

namespace Cert.KernelIdeal.HostSides

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- The region finds, in the buffer of xᵀ, the transpose of the argument x. -/
theorem found_xT (c : Dev nD) :
    (V m c main_v0 : S64x16384.Idx → EReal)
      = transpose S64x16384 [1, 0] (m ((c : Thread nD τ).loc main_arg0)) transposes_S16384x64_S64x16384_1_0 := by
  show StableHlo.after hostOps0 (fun b => m (c, b)) (Proc.devRef .tc main_v0) = _
  after_results

/-- The result buffer ends holding the transpose of the product's array as the region left it. -/
theorem result_after (c : Dev nD) :
    (Pipeline.afterTail₀ cfgs (dats m) 0 (V0 m) [hostOps1] c main_v2 : S16384x10.Idx → EReal)
      = transpose S16384x10 [1, 0] ((dats m 0 c).arrAt 2 cfg0.N) transposes_S10x16384_S16384x10_1_0 := by
  unfold Pipeline.afterTail₀
  show StableHlo.after hostOps1 _ (Proc.devRef .tc main_v2) = _
  after_results
  exact congrArg (fun X => transpose S16384x10 [1, 0] X transposes_S10x16384_S16384x10_1_0)
    (Pipeline.withArrays_arr spec0 launch0.win.arr_inj c _ _ 2)

end Cert.KernelIdeal.HostSides

end
-- ==== Proof.KernelRun.lean ====
/-
  The kernel's run, read as a value.  Every weakly fair execution ends with the result buffer holding the
  specification of the two arguments: the result is the transpose of the product's array (the host line after the
  region), the product's array is W · Y with Y what the region found in the buffer of xᵀ (the two grid points' blocks
  cover it), Y is the transpose of x (the host line before the region), W reaches the region as launched, and
  (W · xᵀ)ᵀ is the specification.  The two arguments end as they were launched.
-/
import proofs.«116845_g12841952215599_cont_fleet_1482_9_alg».proof.Proof.ProductArray
import proofs.«116845_g12841952215599_cont_fleet_1482_9_alg».proof.Proof.HostSides
import proofs.«116845_g12841952215599_cont_fleet_1482_9_alg».proof.Proof.Logits

noncomputable section

namespace Cert.KernelIdeal.RunValue

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- What the lines after the region leave in the result buffer is the specification of the arguments as launched. -/
theorem result_eq (c : Dev nD) :
    Pipeline.afterTail₀ cfgs (dats m) 0 (V0 m) [hostOps1] c main_v2
      = Cert.Logits.logits (m ((c : Thread nD τ).loc main_arg0)) (m ((c : Thread nD τ).loc main_arg1)) := by
  refine (HostSides.result_after m c).trans ?_
  rw [ProductArray.final m c, HostSides.found_xT m c, V_main_arg1 m c]
  exact Cert.Logits.transpose_prod_transpose _ _ _ _

/-- Every weakly fair execution terminates with the result at the specification and the arguments unchanged. -/
theorem run : θ_run defs (onTc (τ := τ) (main (F := Ideal))) ⟨m, fun _ => 0, ρ⟩ fun r => ∀ c : Dev nD,
      r.2.mem ((c.tc : Thread nD τ).loc main_v2)
        = Cert.Logits.logits (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨
      ((h c).2 main_v2 (Pipeline.mem_restRefs_of main_v2 (by decide) (by decide))).trans (result_eq m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c)))⟩)
    (run_main m ρ)

end Cert.KernelIdeal.RunValue

end
-- ==== Proof.lean ====
/-
  The claim: a dense layer without bias or activation,  logits[b, j] = Σ_i x[b, i] · W[j, i]  for x of 16384 rows of 64
  inputs and W of 10 rows of 64 weights, computed two ways that agree on the extended reals.

  The reference contracts x and W over the 64 inputs in one operation.  The kernel works on the transposed problem:
  the host transposes x, a two-point grid forms the product  W · xᵀ  (10 × 16384) half of the columns at a time, each
  point multiplying all of W with its 64 × 8192 block of xᵀ into a zero accumulator, and the host transposes the
  product back.  Entry (b, j) of the kernel's result is therefore  Σ_i W[j, i] · x[b, i] : the reference's sum with the
  two factors of every term exchanged.  Multiplication of extended reals commutes, so the results are equal entry by
  entry; no distributivity or cancellation is involved, and the finiteness of the inputs is never used.

  The idealization rewrote no operation of the kernel, so that it preserves the kernel is the trivial statement.
  The three programs' runs terminate without fault and leave the arguments unchanged: for the two kernel programs by
  the generated frame proofs, for the reference by its generated run.
-/
import proofs.«116845_g12841952215599_cont_fleet_1482_9_alg».proof.Defs
import proofs.«116845_g12841952215599_cont_fleet_1482_9_alg».proof.Proof.Gen.Kernel
import proofs.«116845_g12841952215599_cont_fleet_1482_9_alg».proof.Proof.Gen.Kernel.Skeleton
import proofs.«116845_g12841952215599_cont_fleet_1482_9_alg».proof.Proof.Gen.Kernel.Launch
import proofs.«116845_g12841952215599_cont_fleet_1482_9_alg».proof.Proof.Gen.Kernel.Points
import proofs.«116845_g12841952215599_cont_fleet_1482_9_alg».proof.Proof.Gen.Kernel.Frame
import proofs.«116845_g12841952215599_cont_fleet_1482_9_alg».proof.Proof.Gen.KernelIdeal
import proofs.«116845_g12841952215599_cont_fleet_1482_9_alg».proof.Proof.Gen.KernelIdeal.Skeleton
import proofs.«116845_g12841952215599_cont_fleet_1482_9_alg».proof.Proof.Gen.KernelIdeal.Launch
import proofs.«116845_g12841952215599_cont_fleet_1482_9_alg».proof.Proof.Gen.KernelIdeal.Points
import proofs.«116845_g12841952215599_cont_fleet_1482_9_alg».proof.Proof.Gen.KernelIdeal.Frame
import proofs.«116845_g12841952215599_cont_fleet_1482_9_alg».proof.Proof.Gen.ReferenceIdeal
import proofs.«116845_g12841952215599_cont_fleet_1482_9_alg».proof.Proof.Gen.ReferenceIdeal.Run
import proofs.«116845_g12841952215599_cont_fleet_1482_9_alg».proof.Proof.Gen.ReferenceIdeal.Read
import proofs.«116845_g12841952215599_cont_fleet_1482_9_alg».proof.Proof.Gen.Pre_finite_inputs
import proofs.«116845_g12841952215599_cont_fleet_1482_9_alg».proof.Proof.Logits
import proofs.«116845_g12841952215599_cont_fleet_1482_9_alg».proof.Proof.ReferenceLogits
import proofs.«116845_g12841952215599_cont_fleet_1482_9_alg».proof.Proof.KernelRun
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on x and W, the kernel ends at `logits x W` (its run read as a value) and the reference
    ends at its contraction of the same x and W, which is `logits x W` too. -/
theorem algebraic : Cert.algebraic_KernelIdeal_ReferenceIdeal := by
  intro m ρ m' ρ' _ hagree
  refine ⟨_, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefValue.dot_eq_logits _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
